-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x2 : Shape := ⟨3, ![2, 1024, 2]⟩
abbrev S2x128 : Shape := ⟨2, ![2, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S_ : Shape := ⟨0, ![]⟩

class Facts : Prop where
  bcast_S_S2x1024x2 : S_.BroadcastsInDim S2x1024x2 (![] : Fin 0 → Fin S2x1024x2.rank)
  reducesTo_S2x1024x2_S_d0_1_2 : S2x1024x2.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x8 .f32) (main_arg7 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x8 .f32 := Host.absf main_arg6
  let main_cst_10 : FVec F S_ .f32 := constant S_ .f32 0x7F800000#32
  let main_v30 : FVec F S128x8 .f32 := broadcastInDim S128x8 ![] bcast_S_S128x8 main_cst_10
  let main_v31 : IVec S128x8 1 := cmpf .olt main_v29 main_v30
  let main_c_11 : IVec S_ 1 := constantI S_ 1 1#1
  let main_v32 : IVec S_ 1 := (fun x v => Host.reduce IntOp.andi x v reducesTo_S128x8_S_d0_1 h_S_) main_v31 main_c_11
  let main_v33 : IVec S_ 1 := andi main_v28 main_v32
  fn_part2 (F := F) main_arg7 main_v33

def fn {F : FTy → Type} [FloatOps F] (main_arg0 : FVec F S2x1024x2 .f32) (main_arg1 : FVec F S2x1024x2 .f32) (main_arg2 : FVec F S2x128 .f32) (main_arg3 : FVec F S128 .f32) (main_arg4 : FVec F S128x128 .f32) (main_arg5 : FVec F S128 .f32) (main_arg6 : FVec F S128x8 .f32) (main_arg7 : FVec F S8 .f32) : IVec S_ 1 :=
  let main_v0 : FVec F S2x1024x2 .f32 := Host.absf main_arg0
  let main_cst : FVec F S_ .f32 := constant S_ .f32 0x7F800000#32
  let main_v1 : FVec F S2x1024x2 .f32 := broadcastInDim S2x1024x2 ![] bcast_S_S2x1024x2 main_cst
  let main_v2 : IVec S2x1024x2 1 := cmpf .olt main_v0 main_v1
  let main_c : IVec S_ 1 := constantI S_ 1 1#1
  let main_v3 : IVec S_ 1 := (fun x v => Host.reduce IntOp.andi x v reducesTo_S2x1024x2_S_d0_1_2 h_S_) main_v2 main_c
  let main_v4 : FVec F S2x1024x2 .f32 := Host.absf main_arg1
  let main_cst_0 : FVec F S_ .f32 := constant S_ .f32 0x7F800000#32
  let main_v5 : FVec F S2x1024x2 .f32 := broadcastInDim S2x1024x2 ![] bcast_S_S2x1024x2 main_cst_0
  let main_v6 : IVec S2x1024x2 1 := cmpf .olt main_v4 main_v5
  let main_c_1 : IVec S_ 1 := constantI S_ 1 1#1
  let main_v7 : IVec S_ 1 := (fun x v => Host.reduce IntOp.andi x v reducesTo_S2x1024x2_S_d0_1_2 h_S_) main_v6 main_c_1
  let main_v8 : IVec S_ 1 := andi main_v3 main_v7
  let main_v9 : FVec F S2x128 .f32 := Host.absf main_arg2
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S2x1024x2 : Shape := ⟨3, ![2, 1024, 2]⟩
abbrev S2x128 : Shape := ⟨2, ![2, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S2x8x1024x1024 : Shape := ⟨4, ![2, 8, 1024, 1024]⟩
abbrev S1x128x2 : Shape := ⟨3, ![1, 128, 2]⟩
abbrev S1x8x128x128 : Shape := ⟨4, ![1, 8, 128, 128]⟩
abbrev S128x2 : Shape := ⟨2, ![128, 2]⟩
abbrev S128x1x128 : Shape := ⟨3, ![128, 1, 128]⟩
abbrev S1x128x128 : Shape := ⟨3, ![1, 128, 128]⟩
abbrev S128x128x128 : Shape := ⟨3, ![128, 128, 128]⟩
abbrev S1x1x128 : Shape := ⟨3, ![1, 1, 128]⟩
abbrev S16384x128 : Shape := ⟨2, ![16384, 128]⟩
abbrev S1x128 : Shape := ⟨2, ![1, 128]⟩
abbrev S8x16384 : Shape := ⟨2, ![8, 16384]⟩
abbrev S8x1 : Shape := ⟨2, ![8, 1]⟩
abbrev S8x128x128 : Shape := ⟨3, ![8, 128, 128]⟩

abbrev nBuf : Space → Nat
  | .hbm => 12
  | .vmem => 12
  | .smem => 0
  | _ => 0

abbrev bufTy : (tb : Table) → Fin (tcTables nBuf tb) → BufTy
  | .hbm, ⟨0, _⟩ => ⟨S2x1024x2, .f32⟩
  | .hbm, ⟨1, _⟩ => ⟨S2x1024x2, .f32⟩
  | .hbm, ⟨2, _⟩ => ⟨S2x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S2x128, .bf16⟩
  | .hbm, ⟨9, _⟩ => ⟨S128x128, .bf16⟩
  | .hbm, ⟨10, _⟩ => ⟨S128x8, .bf16⟩
  | .hbm, ⟨11, _⟩ => ⟨S2x8x1024x1024, .f32⟩
  | .local _ .vmem, ⟨0, _⟩ => ⟨S1x128x2, .f32⟩
  | .local _ .vmem, ⟨1, _⟩ => ⟨S1x128x2, .f32⟩
  | .local _ .vmem, ⟨2, _⟩ => ⟨S1x128x2, .f32⟩
  | .local _ .vmem, ⟨3, _⟩ => ⟨S1x128x2, .f32⟩
  | .local _ .vmem, ⟨4, _⟩ => ⟨S2x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S128x8, .bf16⟩
  | .local _ .vmem, ⟨9, _⟩ => ⟨S8, .f32⟩
  | .local _ .vmem, ⟨10, _⟩ => ⟨S1x8x128x128, .f32⟩
  | .local _ .vmem, ⟨11, _⟩ => ⟨S1x8x128x128, .f32⟩
  | _, _ => ⟨S2x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S2x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

class Facts₀ : Prop where
  bitsLt_bf16_f32 : FTy.bits .bf16 < FTy.bits .f32
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S128_S128_0 : ∀ a, (![0] : Fin 1 → Nat) a + S128.size a ≤ S128.size a
  h_S128 : 0 < S128.numel
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128_S1x1x128 : S128.ShapeCasts S1x1x128
  broadcasts_S1x1x128_S128x128x128 : S1x1x128.Broadcasts S128x128x128
  shapeCasts_S128x128x128_S16384x128 : S128x128x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S1x128 : S128.ShapeCasts S1x128
  broadcasts_S1x128_S16384x128 : S1x128.Broadcasts S16384x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8_S8_0 : ∀ a, (![0] : Fin 1 → Nat) a + S8.size a ≤ S8.size a
  h_S8 : 0 < S8.numel
  shapeCasts_S8_S8x1 : S8.ShapeCasts S8x1
  broadcasts_S8x1_S8x16384 : S8x1.Broadcasts S8x16384
  shapeCasts_S8x16384_S8x128x128 : S8x16384.ShapeCasts S8x128x128
  inb_S1x8x128x128_S1x8x128x128_0_0_0_0 : ∀ a, (![0, 0, 0, 0] : Fin 4 → Nat) a + S1x8x128x128.size a ≤ S1x8x128x128.size a
  h_S1x8x128x128 : 0 < S1x8x128x128.numel
  shapeCasts_S1x8x128x128_S8x128x128 : S1x8x128x128.ShapeCasts S8x128x128
  shapeCasts_S8x128x128_S1x8x128x128 : S8x128x128.ShapeCasts S1x8x128x128
  dot_S128x2_S2x128_S128x128_1_0_0_1_n_n_wf : DotDims.WF S128x2 S2x128 S128x128 [1] [0] [0] [1] [] []
  dot_S16384x128_S128x128_S16384x128_1_0_0_1_n_n_wf : DotDims.WF S16384x128 S128x128 S16384x128 [1] [0] [0] [1] [] []
  dot_S128x8_S16384x128_S8x16384_0_1_1_0_n_n_wf : DotDims.WF S128x8 S16384x128 S8x16384 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2.size a ≤ S2x1024x2.size a
  hwx0_0 : ∀ i : grid0.Coords, EltTy.bits .f32 = 32 ∨ (Rect.block (s := S2x1024x2) S1x128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2.size a ≤ S2x1024x2.size a
  hwx0_1 : ∀ i : grid0.Coords, EltTy.bits .f32 = 32 ∨ (Rect.block (s := S2x1024x2) S1x128x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .bf16 = 32 ∨ (Rect.block (s := S2x128) S2x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x8.size a ≤ S128x8.size a
  hwx0_6 : ∀ i : grid0.Coords, EltTy.bits .bf16 = 32 ∨ (Rect.block (s := S128x8) S128x8.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128x128.size a ≤ S2x8x1024x1024.size a
  hwx0_8 : ∀ i : grid0.Coords, EltTy.bits .f32 = 32 ∨ (Rect.block (s := S2x8x1024x1024) S1x8x128x128.size (cc0_transform_8 i) (hinb0_8 i)).WholeWords (EltTy.packing .f32)

variable [Facts₀]

def dot_S128x2_S2x128_S128x128_1_0_0_1_n_n : DotDims S128x2 S2x128 S128x128 where
  lhsContracting := [1]
  rhsContracting := [0]
  lhsNonContracting := [0]
  rhsNonContracting := [1]
  lhsBatch := []
  rhsBatch := []
  wf := dot_S128x2_S2x128_S128x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S128x8_S16384x128_S8x16384_0_1_1_0_n_n : DotDims S128x8 S16384x128 S8x16384 where
  lhsContracting := [0]
  rhsContracting := [1]
  lhsNonContracting := [1]
  rhsNonContracting := [0]
  lhsBatch := []
  rhsBatch := []
  wf := dot_S128x8_S16384x128_S8x16384_0_1_1_0_n_n_wf

abbrev win0_0 : Pipeline.Window sig grid0 :=
  Pipeline.Window.ofSpec (Memref.whole main_arg0) S1x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x8x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x1024x2 : Shape := ⟨3, ![2, 1024, 2]⟩
abbrev S2x128 : Shape := ⟨2, ![2, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S2x1024x1x2 : Shape := ⟨4, ![2, 1024, 1, 2]⟩
abbrev S2x1x1024x2 : Shape := ⟨4, ![2, 1, 1024, 2]⟩
abbrev S2x1024x1024x2 : Shape := ⟨4, ![2, 1024, 1024, 2]⟩
abbrev S2x1024x1024x128 : Shape := ⟨4, ![2, 1024, 1024, 128]⟩
abbrev S1x1x1x128 : Shape := ⟨4, ![1, 1, 1, 128]⟩
abbrev S_ : Shape := ⟨0, ![]⟩
abbrev S2x1024x1024x8 : Shape := ⟨4, ![2, 1024, 1024, 8]⟩
abbrev S1x1x1x8 : Shape := ⟨4, ![1, 1, 1, 8]⟩
abbrev S2x8x1024x1024 : Shape := ⟨4, ![2, 8, 1024, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x1024x2, .f32⟩
  | .hbm, ⟨1, _⟩ => ⟨S2x1024x2, .f32⟩
  | .hbm, ⟨2, _⟩ => ⟨S2x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S2x1024x1x2, .f32⟩
  | .hbm, ⟨9, _⟩ => ⟨S2x1x1024x2, .f32⟩
  | .hbm, ⟨10, _⟩ => ⟨S2x1024x1024x2, .f32⟩
  | .hbm, ⟨11, _⟩ => ⟨S2x1024x1024x2, .f32⟩
  | .hbm, ⟨12, _⟩ => ⟨S2x1024x1024x2, .f32⟩
  | .hbm, ⟨13, _⟩ => ⟨S2x1024x1024x128, .f32⟩
  | .hbm, ⟨14, _⟩ => ⟨S1x1x1x128, .f32⟩
  | .hbm, ⟨15, _⟩ => ⟨S2x1024x1024x128, .f32⟩
  | .hbm, ⟨16, _⟩ => ⟨S2x1024x1024x128, .f32⟩
  | .hbm, ⟨17, _⟩ => ⟨S_, .f32⟩
  | .hbm, ⟨18, _⟩ => ⟨S2x1024x1024x128, .f32⟩
  | .hbm, ⟨19, _⟩ => ⟨S2x1024x1024x128, .f32⟩
  | .hbm, ⟨20, _⟩ => ⟨S2x1024x1024x128, .f32⟩
  | .hbm, ⟨21, _⟩ => ⟨S1x1x1x128, .f32⟩
  | .hbm, ⟨22, _⟩ => ⟨S2x1024x1024x128, .f32⟩
  | .hbm, ⟨23, _⟩ => ⟨S2x1024x1024x128, .f32⟩
  | .hbm, ⟨24, _⟩ => ⟨S_, .f32⟩
  | .hbm, ⟨25, _⟩ => ⟨S2x1024x1024x128, .f32⟩
  | .hbm, ⟨26, _⟩ => ⟨S2x1024x1024x128, .f32⟩
  | .hbm, ⟨27, _⟩ => ⟨S2x1024x1024x8, .f32⟩
  | .hbm, ⟨28, _⟩ => ⟨S1x1x1x8, .f32⟩
  | .hbm, ⟨29, _⟩ => ⟨S2x1024x1024x8, .f32⟩
  | .hbm, ⟨30, _⟩ => ⟨S2x1024x1024x8, .f32⟩
  | .hbm, ⟨31, _⟩ => ⟨S2x8x1024x1024, .f32⟩
  | _, _ => ⟨S2x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_cst : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S2x1024x2_S2x1024x1x2_0_1_3 : S2x1024x2.BroadcastsInDim S2x1024x1x2 (![0, 1, 3] : Fin 3 → Fin S2x1024x1x2.rank)
  bcast_S2x1024x2_S2x1x1024x2_0_2_3 : S2x1024x2.BroadcastsInDim S2x1x1024x2 (![0, 2, 3] : Fin 3 → Fin S2x1x1024x2.rank)
  bcast_S2x1024x1x2_S2x1024x1024x2_0_1_2_3 : S2x1024x1x2.BroadcastsInDim S2x1024x1024x2 (![0, 1, 2, 3] : Fin 4 → Fin S2x1024x1024x2.rank)
  bcast_S2x1x1024x2_S2x1024x1024x2_0_1_2_3 : S2x1x1024x2.BroadcastsInDim S2x1024x1024x2 (![0, 1, 2, 3] : Fin 4 → Fin S2x1024x1024x2.rank)
  bcast_S128_S1x1x1x128_3 : S128.BroadcastsInDim S1x1x1x128 (![3] : Fin 1 → Fin S1x1x1x128.rank)
  bcast_S1x1x1x128_S2x1024x1024x128_0_1_2_3 : S1x1x1x128.BroadcastsInDim S2x1024x1024x128 (![0, 1, 2, 3] : Fin 4 → Fin S2x1024x1024x128.rank)
  bcast_S_S2x1024x1024x128 : S_.BroadcastsInDim S2x1024x1024x128 (![] : Fin 0 → Fin S2x1024x1024x128.rank)
  bcast_S8_S1x1x1x8_3 : S8.BroadcastsInDim S1x1x1x8 (![3] : Fin 1 → Fin S1x1x1x8.rank)
  bcast_S1x1x1x8_S2x1024x1024x8_0_1_2_3 : S1x1x1x8.BroadcastsInDim S2x1024x1024x8 (![0, 1, 2, 3] : Fin 4 → Fin S2x1024x1024x8.rank)
  transposes_S2x1024x1024x8_S2x8x1024x1024_0_3_1_2 : S2x1024x1024x8.Transposes [0, 3, 1, 2] S2x8x1024x1024
  dot_S2x1024x1024x2_S2x128_S2x1024x1024x128_3_0_012_1_n_n_wf : DotDims.WF S2x1024x1024x2 S2x128 S2x1024x1024x128 [3] [0] [0, 1, 2] [1] [] []
  dot_S2x1024x1024x128_S128x128_S2x1024x1024x128_3_0_012_1_n_n_wf : DotDims.WF S2x1024x1024x128 S128x128 S2x1024x1024x128 [3] [0] [0, 1, 2] [1] [] []
  dot_S2x1024x1024x128_S128x8_S2x1024x1024x8_3_0_012_1_n_n_wf : DotDims.WF S2x1024x1024x128 S128x8 S2x1024x1024x8 [3] [0] [0, 1, 2] [1] [] []

variable [Facts₀]

def dot_S2x1024x1024x2_S2x128_S2x1024x1024x128_3_0_012_1_n_n : DotDims S2x1024x1024x2 S2x128 S2x1024x1024x128 where
  lhsContracting := [3]
  rhsContracting := [0]
  lhsNonContracting := [0, 1, 2]
  rhsNonContracting := [1]
  lhsBatch := []
  rhsBatch := []
  wf := dot_S2x1024x1024x2_S2x128_S2x1024x1024x128_3_0_012_1_n_n_wf
def dot_S2x1024x1024x128_S128x128_S2x1024x1024x128_3_0_012_1_n_n : DotDims S2x1024x1024x128 S128x128 S2x1024x1024x128 where
  lhsContracting := [3]
  rhsContracting := [0]
  lhsNonContracting := [0, 1, 2]
  rhsNonContracting := [1]
  lhsBatch := []
  rhsBatch := []
  wf := dot_S2x1024x1024x128_S128x128_S2x1024x1024x128_3_0_012_1_n_n_wf
def dot_S2x1024x1024x128_S128x8_S2x1024x1024x8_3_0_012_1_n_n : DotDims S2x1024x1024x128 S128x8 S2x1024x1024x8 where
  lhsContracting := [3]
  rhsContracting := [0]
  lhsNonContracting := [0, 1, 2]
  rhsNonContracting := [1]
  lhsBatch := []
  rhsBatch := []
  wf := dot_S2x1024x1024x128_S128x8_S2x1024x1024x8_3_0_012_1_n_n_wf

class Facts : Prop extends Facts₀ where

variable [Facts]
-- ==== Proof.Spec.lean ====
/-
  The mathematics of the certificate, free of any program.

  For a query point with coordinates qr (two reals) and a key point with coordinates kr, a three-layer perceptron is
  applied to the relative position: a hidden layer of 128 units on the difference qr - kr, a second hidden layer of
  128 units, and a linear read-out into 8 heads; both hidden layers are rectified (a maximum with zero).

  Two arrangements of the same arithmetic are stated, each exactly as one of the two programs computes it:

  * projected (perK): the first layer is linear, so the query and the key are projected separately and the two
    projections are subtracted, (sum_c qr c * W1 c h) - (sum_c kr c * W1 c h); the read-out multiplies the weight on
    the left, W3 d n * hidden d;
  * direct (perR): the difference of coordinates is projected, sum_c (qr c - kr c) * W1 c h; the read-out multiplies
    the weight on the right, hidden d * W3 d n.

  The read-outs agree on all extended reals (multiplication commutes). The first layers agree when the coordinates
  and the first weight matrix are real numbers: (q0 - k0) * w0 + (q1 - k1) * w1 = (q0 * w0 + q1 * w1) - (k0 * w0 + k1 * w1)
  is the ring law of the reals, while on the extended reals it can fail at the infinities. That is the one place the
  finiteness of the inputs is used.
-/
import Idealize.ShloMosaic.PureOps.Ideal
import Idealize.ShloMosaic.Lib.ValueIdx

noncomputable section

open scoped BigOperators

namespace Cert.Bias

open Idealize.ShloMosaic Idealize.ShloMosaic.ValueIdx

/-- Point coordinates: batch, point, axis. -/
abbrev ShC : Shape := ⟨3, ![2, 1024, 2]⟩
/-- First weight matrix: axis, hidden unit. -/
abbrev ShW1 : Shape := ⟨2, ![2, 128]⟩
/-- A bias over the hidden units. -/
abbrev ShH : Shape := ⟨1, ![128]⟩
/-- Second weight matrix: hidden unit, hidden unit. -/
abbrev ShW2 : Shape := ⟨2, ![128, 128]⟩
/-- Read-out matrix: hidden unit, head. -/
abbrev ShW3 : Shape := ⟨2, ![128, 8]⟩
/-- The bias over the heads. -/
abbrev ShB3 : Shape := ⟨1, ![8]⟩
/-- The result: batch, head, query point, key point. -/
abbrev ShO : Shape := ⟨4, ![2, 8, 1024, 1024]⟩

/-- The zero both programs rectify against, kept as its word: it is the same word on both sides and is never evaluated. -/
abbrev zr : EReal := Ideal.ofBits .f32 0x00000000#32

/-- The first hidden layer, projections subtracted. -/
def hid1K (qr kr : Fin 2 → EReal) (W1 : ShW1.Idx → EReal) (B1 : ShH.Idx → EReal) (h : Fin 128) : EReal :=
  max (((∑ c : Fin 2, qr c * W1 (ix2 c h)) - (∑ c : Fin 2, kr c * W1 (ix2 c h))) + B1 (ix1 h)) zr

/-- The first hidden layer, the difference projected. -/
def hid1R (qr kr : Fin 2 → EReal) (W1 : ShW1.Idx → EReal) (B1 : ShH.Idx → EReal) (h : Fin 128) : EReal :=
  max ((∑ c : Fin 2, (qr c - kr c) * W1 (ix2 c h)) + B1 (ix1 h)) zr

/-- The second hidden layer over a first hidden layer H. -/
def hid2 (H : Fin 128 → EReal) (W2 : ShW2.Idx → EReal) (B2 : ShH.Idx → EReal) (d : Fin 128) : EReal :=
  max ((∑ h : Fin 128, H h * W2 (ix2 h d)) + B2 (ix1 d)) zr

/-- The whole perceptron for one pair of points and one head, projections subtracted, weight on the left in the read-out. -/
def perK (qr kr : Fin 2 → EReal) (W1 : ShW1.Idx → EReal) (B1 : ShH.Idx → EReal) (W2 : ShW2.Idx → EReal) (B2 : ShH.Idx → EReal)
    (W3 : ShW3.Idx → EReal) (B3 : ShB3.Idx → EReal) (n : Fin 8) : EReal :=
  (∑ d : Fin 128, W3 (ix2 d n) * hid2 (hid1K qr kr W1 B1) W2 B2 d) + B3 (ix1 n)

/-- The whole perceptron for one pair of points and one head, the difference projected, weight on the right in the read-out. -/
def perR (qr kr : Fin 2 → EReal) (W1 : ShW1.Idx → EReal) (B1 : ShH.Idx → EReal) (W2 : ShW2.Idx → EReal) (B2 : ShH.Idx → EReal)
    (W3 : ShW3.Idx → EReal) (B3 : ShB3.Idx → EReal) (n : Fin 8) : EReal :=
  (∑ d : Fin 128, hid2 (hid1R qr kr W1 B1) W2 B2 d * W3 (ix2 d n)) + B3 (ix1 n)

/-- The ring law of the first layer, on real numbers inside the extended reals. -/
theorem layer1_real (q0 q1 k0 k1 w0 w1 : ℝ) :
    ((q0 : EReal) * w0 + (q1 : EReal) * w1) - ((k0 : EReal) * w0 + (k1 : EReal) * w1)
      = ((q0 : EReal) - k0) * w0 + ((q1 : EReal) - k1) * w1 := by
  exact_mod_cast (by ring : q0 * w0 + q1 * w1 - (k0 * w0 + k1 * w1) = (q0 - k0) * w0 + (q1 - k1) * w1)

/-- With real coordinates and real first weights the two first layers are one function. -/
theorem hid1K_eq_hid1R (qr kr : Fin 2 → EReal) (W1 : ShW1.Idx → EReal) (B1 : ShH.Idx → EReal)
    (hq : ∀ c, ∃ r : ℝ, qr c = (r : EReal)) (hk : ∀ c, ∃ r : ℝ, kr c = (r : EReal))
    (hw : ∀ i, ∃ r : ℝ, W1 i = (r : EReal)) : hid1K qr kr W1 B1 = hid1R qr kr W1 B1 := by
  funext h
  obtain ⟨q0, e0⟩ := hq 0
  obtain ⟨q1, e1⟩ := hq 1
  obtain ⟨k0, f0⟩ := hk 0
  obtain ⟨k1, f1⟩ := hk 1
  obtain ⟨w0, g0⟩ := hw (ix2 0 h)
  obtain ⟨w1, g1⟩ := hw (ix2 1 h)
  unfold hid1K hid1R
  rw [Fin.sum_univ_two, Fin.sum_univ_two, Fin.sum_univ_two, e0, e1, f0, f1, g0, g1, layer1_real]

/-- So, under the same finiteness, the two arrangements of the perceptron agree. -/
theorem perK_eq_perR (qr kr : Fin 2 → EReal) (W1 : ShW1.Idx → EReal) (B1 : ShH.Idx → EReal) (W2 : ShW2.Idx → EReal) (B2 : ShH.Idx → EReal)
    (W3 : ShW3.Idx → EReal) (B3 : ShB3.Idx → EReal) (n : Fin 8)
    (hq : ∀ c, ∃ r : ℝ, qr c = (r : EReal)) (hk : ∀ c, ∃ r : ℝ, kr c = (r : EReal))
    (hw : ∀ i, ∃ r : ℝ, W1 i = (r : EReal)) :
    perK qr kr W1 B1 W2 B2 W3 B3 n = perR qr kr W1 B1 W2 B2 W3 B3 n := by
  unfold perK perR
  rw [hid1K_eq_hid1R qr kr W1 B1 hq hk hw]
  exact congrArg (· + B3 (ix1 n)) (Finset.sum_congr rfl fun d _ => mul_comm _ _)

/-- The bias array as the projecting program computes it: entry (b, n, q, k) is the perceptron at query point q and
    key point k of batch b, head n. -/
def GK (Q K : ShC.Idx → EReal) (W1 : ShW1.Idx → EReal) (B1 : ShH.Idx → EReal) (W2 : ShW2.Idx → EReal) (B2 : ShH.Idx → EReal)
    (W3 : ShW3.Idx → EReal) (B3 : ShB3.Idx → EReal) : ShO.Idx → EReal := fun i =>
  perK (fun c => Q (ix3 (i 0 : Fin 2) (i 2 : Fin 1024) c)) (fun c => K (ix3 (i 0 : Fin 2) (i 3 : Fin 1024) c)) W1 B1 W2 B2 W3 B3 (i 1 : Fin 8)

/-- The bias array as the direct program computes it. -/
def GR (Q K : ShC.Idx → EReal) (W1 : ShW1.Idx → EReal) (B1 : ShH.Idx → EReal) (W2 : ShW2.Idx → EReal) (B2 : ShH.Idx → EReal)
    (W3 : ShW3.Idx → EReal) (B3 : ShB3.Idx → EReal) : ShO.Idx → EReal := fun i =>
  perR (fun c => Q (ix3 (i 0 : Fin 2) (i 2 : Fin 1024) c)) (fun c => K (ix3 (i 0 : Fin 2) (i 3 : Fin 1024) c)) W1 B1 W2 B2 W3 B3 (i 1 : Fin 8)

/-- With real coordinates and real first weights the two arrays are equal. -/
theorem GK_eq_GR (Q K : ShC.Idx → EReal) (W1 : ShW1.Idx → EReal) (B1 : ShH.Idx → EReal) (W2 : ShW2.Idx → EReal) (B2 : ShH.Idx → EReal)
    (W3 : ShW3.Idx → EReal) (B3 : ShB3.Idx → EReal)
    (hQ : ∀ i, ∃ r : ℝ, Q i = (r : EReal)) (hK : ∀ i, ∃ r : ℝ, K i = (r : EReal)) (hw : ∀ i, ∃ r : ℝ, W1 i = (r : EReal)) :
    GK Q K W1 B1 W2 B2 W3 B3 = GR Q K W1 B1 W2 B2 W3 B3 :=
  funext fun i => perK_eq_perR _ _ W1 B1 W2 B2 W3 B3 _ (fun _ => hQ _) (fun _ => hK _) hw

end Cert.Bias

end
-- ==== Proof.Finite.lean ====
import proofs.«131962_j6700148981826_2_alg».proof.Pre_finite_inputs
import proofs.«131962_j6700148981826_2_alg».proof.Proof.Gen.Pre_finite_inputs
import Idealize.ShloMosaic.PureOps.Ideal
import Idealize.ShloMosaic.Lib.ValueIdx
import Idealize.ShloMosaic.Lib.ReduceAll

/-!
  Finiteness of the first three inputs, read back from the precondition.

  The precondition is the conjunction, over the eight float arguments, of "every element `x` has
  `|x| < +∞`", each computed as a reduction by `and` of the elementwise comparison bits. At the ideal
  instance an element is an extended real, `|x|` is `max x (-x)`, and the word `0x7F800000` denotes `⊤`.
  So the precondition being 1 gives `max x (-x) < ⊤` for every element of every argument, and an
  extended real with `max x (-x) < ⊤` is neither `⊥` nor `⊤`: it is a real number.
-/

namespace Cert.Finite

open Idealize.ShloMosaic Cert.Pre_finite_inputs

/-- The scalar shape has exactly one index: there is no axis to give a coordinate on. -/
instance : Subsingleton S_.Idx := ⟨fun _ _ => funext fun d => d.elim0⟩

/-- An extended real whose absolute value `max x (-x)` is strictly below `⊤` is a real number:
    at `⊥` the negation is `⊤`, at `⊤` the value itself is, and either makes the maximum `⊤`. -/
theorem exists_real_of_abs_lt_top (x : EReal) (h : max x (-x) < ⊤) : ∃ r : ℝ, x = (r : EReal) := by
  induction x using EReal.rec with
  | bot => simp at h
  | top => simp at h
  | coe r => exact ⟨r, rfl⟩

/-- The f32 word `0x7F800000` (sign 0, exponent all ones, significand 0) denotes `+∞`. -/
theorem ofBits_inf : Ideal.ofBits .f32 0x7F800000#32 = ⊤ := by simp [Ideal.ofBits, Ideal.ieee]

/-- The one-bit word of a Boolean is 1 exactly when the Boolean is true. -/
theorem ofBool_eq_one {b : Bool} : BitVec.ofBool b = 1#1 ↔ b = true := by cases b <;> decide

/-- One comparison bit: where `|x| < +∞` (the bound a broadcast of the scalar constant) holds at an
    index, the element there is a real number. -/
theorem exists_real_of_bit {s : Shape} (hb : S_.BroadcastsInDim s (![] : Fin 0 → Fin s.rank))
    (x : FVec Ideal s .f32) (i : s.Idx)
    (h : cmpf .olt (Host.absf x) (broadcastInDim s ![] hb (constant (F := Ideal) S_ .f32 0x7F800000#32)) i = 1#1) :
    ∃ r : ℝ, x i = (r : EReal) := by
  have h' : BitVec.ofBool (decide (max (x i) (-(x i)) < Ideal.ofBits .f32 0x7F800000#32)) = 1#1 := h
  rw [ofBool_eq_one, decide_eq_true_eq, ofBits_inf] at h'
  exact exists_real_of_abs_lt_top (x i) h'

/-- A conjunction of two one-bit vectors, read at an index, is the conjunction of the bits. -/
theorem andi_apply {s : Shape} {w : Nat} (a b : IVec s w) (i : s.Idx) : andi a b i = IntOp.andi (a i) (b i) := rfl

/-- The precondition gives the finiteness of every element of the first three arguments. -/
theorem of_pre (x0 x1 : FVec Ideal S2x1024x2 .f32) (x2 : FVec Ideal S2x128 .f32) (x3 : FVec Ideal S128 .f32)
    (x4 : FVec Ideal S128x128 .f32) (x5 : FVec Ideal S128 .f32) (x6 : FVec Ideal S128x8 .f32) (x7 : FVec Ideal S8 .f32)
    (h : Cert.Pre_finite_inputs.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn, fn_part1, fn_part2] at h0
  simp only [andi_apply, IntOp.andi_eq_one] at h0
  obtain ⟨⟨⟨⟨⟨⟨⟨e0, e1⟩, e2⟩, _⟩, _⟩, _⟩, _⟩, _⟩ := h0
  exact ⟨fun i => exists_real_of_bit _ x0 i (Host.reduce_andi_all _ _ _ _ _ e0 i),
         fun i => exists_real_of_bit _ x1 i (Host.reduce_andi_all _ _ _ _ _ e1 i),
         fun i => exists_real_of_bit _ x2 i (Host.reduce_andi_all _ _ _ _ _ e2 i)⟩

end Cert.Finite
-- ==== Proof.RefSpec.lean ====
/-
  The reference's result, read one operation at a time, is the direct arrangement of the perceptron (Spec: GR).

  Entry (b, n, q, k) of the reference's transposed result is entry (b, q, k, n) of the read-out; the read-out sums over the
  second hidden layer at (b, q, k, d); that layer sums over the first at (b, q, k, h); the first sums the coordinate
  differences Q (b, q, c) - K (b, k, c) against W1 (c, h). The broadcasts only forget coordinates: a bias read at
  (b, q, k, h) is the bias at h, and the rectifying zero is the same word everywhere.
-/
import proofs.«131962_j6700148981826_2_alg».proof.Proof.Gen.ReferenceIdeal.Read
import proofs.«131962_j6700148981826_2_alg».proof.Proof.Spec

noncomputable section

open scoped BigOperators

namespace Cert.ReferenceIdeal.RefValue

open Cert.ReferenceIdeal Cert.ReferenceIdeal.Read Idealize.ShloMosaic Idealize.ShloMosaic.ValueIdx Cert.Bias

variable (b : Fin 2) (n : Fin 8) (q k : Fin 1024)

/-- The head bias read at (b, q, k, n) is the bias at n. -/
theorem idx_b3 : idx_main_v16 (idx_main_v17 (idx_main_v19 (ix4 b n q k))) = ix1 n :=
  funext fun a => Fin.ext (by match a with | ⟨0, _⟩ => rfl)

/-- The read-out weight met at hidden unit d for head n. -/
theorem idx_w3 (d : Fin 128) : ridx_main_v15 (idx_main_v19 (ix4 b n q k)) d = ix2 d n :=
  funext fun a => Fin.ext (by match a with | ⟨0, _⟩ => rfl | ⟨1, _⟩ => rfl)

/-- The second bias read at (b, q, k, d) is the bias at d. -/
theorem idx_b2 (d : Fin 128) : idx_main_v11 (idx_main_v12 (lidx_main_v15 (idx_main_v19 (ix4 b n q k)) d)) = ix1 d :=
  funext fun a => Fin.ext (by match a with | ⟨0, _⟩ => rfl)

/-- The second weight met at first-layer unit h for second-layer unit d. -/
theorem idx_w2 (d h : Fin 128) : ridx_main_v10 (lidx_main_v15 (idx_main_v19 (ix4 b n q k)) d) h = ix2 h d :=
  funext fun a => Fin.ext (by match a with | ⟨0, _⟩ => rfl | ⟨1, _⟩ => rfl)

/-- The first bias read at (b, q, k, h) is the bias at h. -/
theorem idx_b1 (d h : Fin 128) :
    idx_main_v6 (idx_main_v7 (lidx_main_v10 (lidx_main_v15 (idx_main_v19 (ix4 b n q k)) d) h)) = ix1 h :=
  funext fun a => Fin.ext (by match a with | ⟨0, _⟩ => rfl)

/-- The first weight met at axis c for unit h. -/
theorem idx_w1 (d h : Fin 128) (c : Fin 2) :
    ridx_main_v5 (lidx_main_v10 (lidx_main_v15 (idx_main_v19 (ix4 b n q k)) d) h) c = ix2 c h :=
  funext fun a => Fin.ext (by match a with | ⟨0, _⟩ => rfl | ⟨1, _⟩ => rfl)

/-- The query coordinate read at (b, q, k, c) is the query's at (b, q, c). -/
theorem idx_q (d h : Fin 128) (c : Fin 2) :
    idx_main_v0 (idx_main_v2 (lidx_main_v5 (lidx_main_v10 (lidx_main_v15 (idx_main_v19 (ix4 b n q k)) d) h) c)) = ix3 b q c :=
  funext fun a => Fin.ext (by match a with | ⟨0, _⟩ => rfl | ⟨1, _⟩ => rfl | ⟨2, _⟩ => rfl)

/-- The key coordinate read at (b, q, k, c) is the key's at (b, k, c). -/
theorem idx_k (d h : Fin 128) (c : Fin 2) :
    idx_main_v1 (idx_main_v3 (lidx_main_v5 (lidx_main_v10 (lidx_main_v15 (idx_main_v19 (ix4 b n q k)) d) h) c)) = ix3 b k c :=
  funext fun a => Fin.ext (by match a with | ⟨0, _⟩ => rfl | ⟨1, _⟩ => rfl | ⟨2, _⟩ => rfl)

/-- The reference's result is the direct arrangement of the perceptron, entry by entry. -/
theorem result_is_GR (x0 x1 : (⟨S2x1024x2, .f32⟩ : BufTy).Contents (Elt Ideal)) (x2 : (⟨S2x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) (x6 : (⟨S128x8, .f32⟩ : BufTy).Contents (Elt Ideal))
    (x7 : (⟨S8, .f32⟩ : BufTy).Contents (Elt Ideal)) :
    val_main_v19 (F := Ideal) x0 x1 x2 x3 x4 x5 x6 x7 = GR x0 x1 x2 x3 x4 x5 x6 x7 := by
  funext i
  obtain ⟨b, n, q, k, rfl⟩ : ∃ (b : Fin 2) (n : Fin 8) (q k : Fin 1024), i = ix4 b n q k := ⟨i 0, i 1, i 2, i 3, eq_ix4 i⟩
  simp only [val_main_v19_apply, val_main_v18_apply, val_main_v15_apply, val_main_v17_apply, val_main_v16_apply,
    val_main_v14_apply, val_main_v13_apply, val_main_call1_v0_apply, val_main_call1_cst_apply, val_main_v10_apply,
    val_main_v12_apply, val_main_v11_apply, val_main_v9_apply, val_main_v8_apply, val_main_call0_v0_apply,
    val_main_call0_cst_apply, val_main_v5_apply, val_main_v7_apply, val_main_v6_apply, val_main_v4_apply,
    val_main_v2_apply, val_main_v0_apply, val_main_v3_apply, val_main_v1_apply,
    idx_b3, idx_w3, idx_b2, idx_w2, idx_b1, idx_w1, idx_q, idx_k,
    Ideal.addf_def, Ideal.subf_def, Ideal.maximumf_def, Ideal.ofBits_def]
  rfl

end Cert.ReferenceIdeal.RefValue

end
-- ==== Proof.Payload.lean ====
/-
  What one grid point's body computes, entry by entry: the projected arrangement of the perceptron (Spec: perK) of the
  point's blocks.

  The body holds a block of 128 query points x0 and a block of 128 key points x1. It projects both onto the 128 hidden
  units (two matrix products with two-term sums), forms the 128 x 128 x 128 array of differences of projections plus
  the bias, rectifies, flattens the pair (p, q) of a query and a key into the row p * 128 + q of a 16384 x 128 matrix,
  multiplies by the second weight matrix, adds the bias and rectifies, and contracts with the read-out matrix from the
  left, which gives an 8 x 16384 matrix; row n, column p * 128 + q of it, plus the head bias, is stored at (n, p, q).
  So the stored entry at (n, p, q) depends on query row p and key row q only.
-/
import proofs.«131962_j6700148981826_2_alg».proof.Proof.Gen.KernelIdeal.Skeleton
import proofs.«131962_j6700148981826_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Bias

/-! ## The three matrix products at an entry

Each product contracts ONE axis of each operand; the operand indices met at output entry i and contraction index q keep
one coordinate of i and take q on the contracted axis. -/

theorem proj_lhs_keep (i : S128x128.Idx) (q : dot_S128x2_S2x128_S128x128_1_0_0_1_n_n.contr.Idx) : (dot_S128x2_S2x128_S128x128_1_0_0_1_n_n.lhsIdx i q 0).val = (i 0).val := by
  unfold DotDims.lhsIdx
  rw [dif_neg (show ¬(0 : Fin S128x2.rank) ∈ dot_S128x2_S2x128_S128x128_1_0_0_1_n_n.lhsBatch by decide), dif_pos (show (0 : Fin S128x2.rank) ∈ dot_S128x2_S2x128_S128x128_1_0_0_1_n_n.lhsNonContracting by decide)]
  rfl
theorem proj_lhs_sum (i : S128x128.Idx) (q : dot_S128x2_S2x128_S128x128_1_0_0_1_n_n.contr.Idx) : (dot_S128x2_S2x128_S128x128_1_0_0_1_n_n.lhsIdx i q 1).val = (q ⟨0, by decide⟩).val :=
  dot_S128x2_S2x128_S128x128_1_0_0_1_n_n.lhsIdx_val_of_single rfl i q
theorem proj_rhs_keep (i : S128x128.Idx) (q : dot_S128x2_S2x128_S128x128_1_0_0_1_n_n.contr.Idx) : (dot_S128x2_S2x128_S128x128_1_0_0_1_n_n.rhsIdx i q 1).val = (i 1).val := by
  unfold DotDims.rhsIdx
  rw [dif_neg (show ¬(1 : Fin S2x128.rank) ∈ dot_S128x2_S2x128_S128x128_1_0_0_1_n_n.rhsBatch by decide), dif_pos (show (1 : Fin S2x128.rank) ∈ dot_S128x2_S2x128_S128x128_1_0_0_1_n_n.rhsNonContracting by decide)]
  rfl
theorem proj_rhs_sum (i : S128x128.Idx) (q : dot_S128x2_S2x128_S128x128_1_0_0_1_n_n.contr.Idx) : (dot_S128x2_S2x128_S128x128_1_0_0_1_n_n.rhsIdx i q 0).val = (q ⟨0, by decide⟩).val :=
  dot_S128x2_S2x128_S128x128_1_0_0_1_n_n.rhsIdx_val_of_single rfl i q

theorem hidden_lhs_keep (i : S16384x128.Idx) (q : dot_S16384x128_S128x128_S16384x128_1_0_0_1_n_n.contr.Idx) : (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem hidden_lhs_sum (i : S16384x128.Idx) (q : dot_S16384x128_S128x128_S16384x128_1_0_0_1_n_n.contr.Idx) : (dot_S16384x128_S128x128_S16384x128_1_0_0_1_n_n.lhsIdx i q 1).val = (q ⟨0, by decide⟩).val :=
  dot_S16384x128_S128x128_S16384x128_1_0_0_1_n_n.lhsIdx_val_of_single rfl i q
theorem hidden_rhs_keep (i : S16384x128.Idx) (q : dot_S16384x128_S128x128_S16384x128_1_0_0_1_n_n.contr.Idx) : (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl
theorem hidden_rhs_sum (i : S16384x128.Idx) (q : dot_S16384x128_S128x128_S16384x128_1_0_0_1_n_n.contr.Idx) : (dot_S16384x128_S128x128_S16384x128_1_0_0_1_n_n.rhsIdx i q 0).val = (q ⟨0, by decide⟩).val :=
  dot_S16384x128_S128x128_S16384x128_1_0_0_1_n_n.rhsIdx_val_of_single rfl i q

theorem readout_lhs_keep (i : S8x16384.Idx) (q : dot_S128x8_S16384x128_S8x16384_0_1_1_0_n_n.contr.Idx) : (dot_S128x8_S16384x128_S8x16384_0_1_1_0_n_n.lhsIdx i q 1).val = (i 0).val := by
  unfold DotDims.lhsIdx
  rw [dif_neg (show ¬(1 : Fin S128x8.rank) ∈ dot_S128x8_S16384x128_S8x16384_0_1_1_0_n_n.lhsBatch by decide), dif_pos (show (1 : Fin S128x8.rank) ∈ dot_S128x8_S16384x128_S8x16384_0_1_1_0_n_n.lhsNonContracting by decide)]
  rfl
theorem readout_lhs_sum (i : S8x16384.Idx) (q : dot_S128x8_S16384x128_S8x16384_0_1_1_0_n_n.contr.Idx) : (dot_S128x8_S16384x128_S8x16384_0_1_1_0_n_n.lhsIdx i q 0).val = (q ⟨0, by decide⟩).val :=
  dot_S128x8_S16384x128_S8x16384_0_1_1_0_n_n.lhsIdx_val_of_single rfl i q
theorem readout_rhs_keep (i : S8x16384.Idx) (q : dot_S128x8_S16384x128_S8x16384_0_1_1_0_n_n.contr.Idx) : (dot_S128x8_S16384x128_S8x16384_0_1_1_0_n_n.rhsIdx i q 0).val = (i 1).val := by
  unfold DotDims.rhsIdx
  rw [dif_neg (show ¬(0 : Fin S16384x128.rank) ∈ dot_S128x8_S16384x128_S8x16384_0_1_1_0_n_n.rhsBatch by decide), dif_pos (show (0 : Fin S16384x128.rank) ∈ dot_S128x8_S16384x128_S8x16384_0_1_1_0_n_n.rhsNonContracting by decide)]
  rfl
theorem readout_rhs_sum (i : S8x16384.Idx) (q : dot_S128x8_S16384x128_S8x16384_0_1_1_0_n_n.contr.Idx) : (dot_S128x8_S16384x128_S8x16384_0_1_1_0_n_n.rhsIdx i q 1).val = (q ⟨0, by decide⟩).val :=
  dot_S128x8_S16384x128_S8x16384_0_1_1_0_n_n.rhsIdx_val_of_single rfl i q

/-- A 128 x 2 by 2 x 128 product into zero: entry (p, h) is the two-term sum over the axis. -/
theorem proj_apply (l : FVec Ideal S128x2 .bf16) (r : FVec Ideal S2x128 .bf16) (p h : Fin 128) :
    matmul dot_S128x2_S2x128_S128x128_1_0_0_1_n_n none l r (constant S128x128 .f32 0x00000000#32) (ix2 p h)
      = ∑ c : Fin 2, l (ix2 p c) * r (ix2 c h) := by
  simp only [matmul]
  rw [Ideal.matmul_constant_zero_apply, ← Equiv.sum_comp (contrEquiv1 dot_S128x2_S2x128_S128x128_1_0_0_1_n_n 2 rfl rfl).symm]
  refine Finset.sum_congr rfl fun c _ => ?_
  have hk := contrEquiv1_symm_val dot_S128x2_S2x128_S128x128_1_0_0_1_n_n 2 rfl rfl c
  have el : dot_S128x2_S2x128_S128x128_1_0_0_1_n_n.lhsIdx (ix2 p h) ((contrEquiv1 dot_S128x2_S2x128_S128x128_1_0_0_1_n_n 2 rfl rfl).symm c) = ix2 p c := funext fun a => Fin.ext (by
    match a with
    | ⟨0, _⟩ => exact proj_lhs_keep _ _
    | ⟨1, _⟩ => exact (proj_lhs_sum _ _).trans hk)
  have er : dot_S128x2_S2x128_S128x128_1_0_0_1_n_n.rhsIdx (ix2 p h) ((contrEquiv1 dot_S128x2_S2x128_S128x128_1_0_0_1_n_n 2 rfl rfl).symm c) = ix2 c h := funext fun a => Fin.ext (by
    match a with
    | ⟨0, _⟩ => exact (proj_rhs_sum _ _).trans hk
    | ⟨1, _⟩ => exact proj_rhs_keep _ _)
  rw [el, er]

/-- A 16384 x 128 by 128 x 128 product into zero: entry (j, d) is the sum over the 128 hidden units. -/
theorem hidden_apply (l : FVec Ideal S16384x128 .bf16) (r : FVec Ideal S128x128 .bf16) (j : Fin 16384) (d : Fin 128) :
    matmul dot_S16384x128_S128x128_S16384x128_1_0_0_1_n_n none l r (constant S16384x128 .f32 0x00000000#32) (ix2 j d)
      = ∑ h : Fin 128, l (ix2 j h) * r (ix2 h d) := by
  simp only [matmul]
  rw [Ideal.matmul_constant_zero_apply, ← Equiv.sum_comp (contrEquiv1 dot_S16384x128_S128x128_S16384x128_1_0_0_1_n_n 128 rfl rfl).symm]
  refine Finset.sum_congr rfl fun h _ => ?_
  have hk := contrEquiv1_symm_val dot_S16384x128_S128x128_S16384x128_1_0_0_1_n_n 128 rfl rfl h
  have el : dot_S16384x128_S128x128_S16384x128_1_0_0_1_n_n.lhsIdx (ix2 j d) ((contrEquiv1 dot_S16384x128_S128x128_S16384x128_1_0_0_1_n_n 128 rfl rfl).symm h) = ix2 j h := funext fun a => Fin.ext (by
    match a with
    | ⟨0, _⟩ => exact hidden_lhs_keep _ _
    | ⟨1, _⟩ => exact (hidden_lhs_sum _ _).trans hk)
  have er : dot_S16384x128_S128x128_S16384x128_1_0_0_1_n_n.rhsIdx (ix2 j d) ((contrEquiv1 dot_S16384x128_S128x128_S16384x128_1_0_0_1_n_n 128 rfl rfl).symm h) = ix2 h d := funext fun a => Fin.ext (by
    match a with
    | ⟨0, _⟩ => exact (hidden_rhs_sum _ _).trans hk
    | ⟨1, _⟩ => exact hidden_rhs_keep _ _)
  rw [el, er]

/-- The read-out: the 128 x 8 matrix contracted on its rows with the 16384 x 128 matrix contracted on its columns, into
    zero: entry (n, j) is the sum over the 128 hidden units of weight (d, n) times hidden (j, d). -/
theorem readout_apply (l : FVec Ideal S128x8 .bf16) (r : FVec Ideal S16384x128 .bf16) (n : Fin 8) (j : Fin 16384) :
    matmul dot_S128x8_S16384x128_S8x16384_0_1_1_0_n_n none l r (constant S8x16384 .f32 0x00000000#32) (ix2 n j)
      = ∑ d : Fin 128, l (ix2 d n) * r (ix2 j d) := by
  simp only [matmul]
  rw [Ideal.matmul_constant_zero_apply, ← Equiv.sum_comp (contrEquiv1 dot_S128x8_S16384x128_S8x16384_0_1_1_0_n_n 128 rfl rfl).symm]
  refine Finset.sum_congr rfl fun d _ => ?_
  have hk := contrEquiv1_symm_val dot_S128x8_S16384x128_S8x16384_0_1_1_0_n_n 128 rfl rfl d
  have el : dot_S128x8_S16384x128_S8x16384_0_1_1_0_n_n.lhsIdx (ix2 n j) ((contrEquiv1 dot_S128x8_S16384x128_S8x16384_0_1_1_0_n_n 128 rfl rfl).symm d) = ix2 d n := funext fun a => Fin.ext (by
    match a with
    | ⟨0, _⟩ => exact (readout_lhs_sum _ _).trans hk
    | ⟨1, _⟩ => exact readout_lhs_keep _ _)
  have er : dot_S128x8_S16384x128_S8x16384_0_1_1_0_n_n.rhsIdx (ix2 n j) ((contrEquiv1 dot_S128x8_S16384x128_S8x16384_0_1_1_0_n_n 128 rfl rfl).symm d) = ix2 j d := funext fun a => Fin.ext (by
    match a with
    | ⟨0, _⟩ => exact readout_rhs_keep _ _
    | ⟨1, _⟩ => exact (readout_rhs_sum _ _).trans hk)
  rw [el, er]

/-! ## The re-layings at an entry

Each is a change of shape followed by a repetition (or a change of shape alone); read at an entry it is the operand at
the entry with the same row-major position, the repeated axes forgotten. -/

section Layout
variable {α : Type}

/-- The pair (query row p, key row q) as the row p * 128 + q of the flattened 16384-row matrix. -/
def pair (p q : Fin 128) : Fin 16384 := ⟨p.val * 128 + q.val, by have := p.isLt; have := q.isLt; omega⟩

/-- A 128 x 128 matrix viewed 128 x 1 x 128 and repeated along the middle axis: entry (p, q, h) is the matrix at (p, h). -/
theorem rowsRepeated_apply (x : S128x128.Idx → α) (h1 : S128x128.ShapeCasts S128x1x128) (h2 : S128x1x128.Broadcasts S128x128x128)
    (p q h : Fin 128) : broadcastTo S128x128x128 (shapeCast S128x1x128 x h1) h2 (ix3 p q h) = x (ix2 p h) := by
  refine (broadcastTo_apply _ h2 (ix3 p q h) (ix3 p (0 : Fin 1) h) fun a => ?_).trans ?_
  · match a with
    | ⟨0, _⟩ => show p.val = if (128 : Nat) = 1 then 0 else p.val; rw [if_neg (by decide)]
    | ⟨1, _⟩ => show 0 = if (1 : Nat) = 1 then 0 else q.val; rw [if_pos rfl]
    | ⟨2, _⟩ => show h.val = if (128 : Nat) = 1 then 0 else h.val; rw [if_neg (by decide)]
  · exact shapeCast_apply x h1 _ _ (by
      rw [Shape.rowMajor_val_two, Shape.rowMajor_val_three]
      show p.val * 128 + h.val = (p.val * 1 + 0) * 128 + h.val
      omega)

/-- A 128 x 128 matrix viewed 1 x 128 x 128 and repeated along the first axis: entry (p, q, h) is the matrix at (q, h). -/
theorem colsRepeated_apply (x : S128x128.Idx → α) (h1 : S128x128.ShapeCasts S1x128x128) (h2 : S1x128x128.Broadcasts S128x128x128)
    (p q h : Fin 128) : broadcastTo S128x128x128 (shapeCast S1x128x128 x h1) h2 (ix3 p q h) = x (ix2 q h) := by
  refine (broadcastTo_apply _ h2 (ix3 p q h) (ix3 (0 : Fin 1) q h) fun a => ?_).trans ?_
  · match a with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show h.val = if (128 : Nat) = 1 then 0 else h.val; rw [if_neg (by decide)]
  · exact shapeCast_ab_1ab_apply x h1 (0 : Fin 1) q h

/-- A 128-vector viewed 1 x 1 x 128 and repeated along the first two axes: entry (p, q, h) is the vector at h. -/
theorem unitsRepeated_apply (x : S128.Idx → α) (h1 : S128.ShapeCasts S1x1x128) (h2 : S1x1x128.Broadcasts S128x128x128)
    (p q h : Fin 128) : broadcastTo S128x128x128 (shapeCast S1x1x128 x h1) h2 (ix3 p q h) = x (ix1 h) := by
  refine (broadcastTo_apply _ h2 (ix3 p q h) (ix3 (0 : Fin 1) (0 : Fin 1) h) fun a => ?_).trans ?_
  · match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show h.val = if (128 : Nat) = 1 then 0 else h.val; rw [if_neg (by decide)]
  · exact shapeCast_apply x h1 _ _ (by
      rw [Shape.rowMajor_val_one, Shape.rowMajor_val_three]
      show h.val = (0 * 1 + 0) * 128 + h.val
      omega)

/-- The 128 x 128 x 128 array flattened to 16384 x 128: row p * 128 + q, column h is the array at (p, q, h). -/
theorem pairsFlattened_apply (x : S128x128x128.Idx → α) (h1 : S128x128x128.ShapeCasts S16384x128) (p q h : Fin 128) :
    shapeCast S16384x128 x h1 (ix2 (pair p q) h) = x (ix3 p q h) :=
  shapeCast_apply x h1 _ _ (by
    rw [Shape.rowMajor_val_three, Shape.rowMajor_val_two]
    show (p.val * 128 + q.val) * 128 + h.val = (p.val * 128 + q.val) * 128 + h.val
    rfl)

/-- A 128-vector viewed 1 x 128 and repeated along the rows: entry (j, d) is the vector at d. -/
theorem rowRepeated_apply (x : S128.Idx → α) (h1 : S128.ShapeCasts S1x128) (h2 : S1x128.Broadcasts S16384x128)
    (j : Fin 16384) (d : Fin 128) : broadcastTo S16384x128 (shapeCast S1x128 x h1) h2 (ix2 j d) = x (ix1 d) :=
  (broadcastTo_1b_ab_apply _ h2 j d).trans (shapeCast_a_1a_apply x h1 (0 : Fin 1) d)

/-- An 8-vector viewed 8 x 1 and repeated along the columns: entry (n, j) is the vector at n. -/
theorem colRepeated_apply (x : S8.Idx → α) (h1 : S8.ShapeCasts S8x1) (h2 : S8x1.Broadcasts S8x16384)
    (n : Fin 8) (j : Fin 16384) : broadcastTo S8x16384 (shapeCast S8x1 x h1) h2 (ix2 n j) = x (ix1 n) := by
  refine (broadcastTo_apply _ h2 (ix2 n j) (ix2 n (0 : Fin 1)) fun a => ?_).trans ?_
  · match a with
    | ⟨0, _⟩ => show n.val = if (8 : Nat) = 1 then 0 else n.val; rw [if_neg (by decide)]
    | ⟨1, _⟩ => show 0 = if (1 : Nat) = 1 then 0 else j.val; rw [if_pos rfl]
  · exact shapeCast_apply x h1 _ _ (by
      rw [Shape.rowMajor_val_one, Shape.rowMajor_val_two]
      show n.val = n.val * 1 + 0
      omega)

/-- The 8 x 16384 matrix split back to 8 x 128 x 128: entry (n, p, q) is the matrix at row n, column p * 128 + q. -/
theorem pairsSplit_apply (x : S8x16384.Idx → α) (h1 : S8x16384.ShapeCasts S8x128x128) (n : Fin 8) (p q : Fin 128) :
    shapeCast S8x128x128 x h1 (ix3 n p q) = x (ix2 n (pair p q)) :=
  shapeCast_apply x h1 _ _ (by
    rw [Shape.rowMajor_val_two, Shape.rowMajor_val_three]
    show n.val * 16384 + (p.val * 128 + q.val) = (n.val * 128 + p.val) * 128 + q.val
    omega)

end Layout

/-! ## The body's stored value at an entry -/

/-- The value the body stores at (n, p, q) of its output block is the projected arrangement of the perceptron at query
    row p of the query block, key row q of the key block, head n. -/
theorem body_apply (x0 x1 : Vec Ideal S1x128x2 .f32) (x2 : Vec Ideal S2x128 .bf16) (x3 : Vec Ideal S128 .f32)
    (x4 : Vec Ideal S128x128 .bf16) (x5 : Vec Ideal S128 .f32) (x6 : Vec Ideal S128x8 .bf16) (x7 : Vec Ideal S8 .f32)
    (u : Fin 1) (n : Fin 8) (p q : Fin 128) :
    k0_pay1 (k0_pay2 x0 x1 x2 x3 x4 x5) (k0_pay3 x6) x7 (constant S8x16384 .f32 0x00000000#32) (ix4 u n p q)
      = perK (fun c => x0 (ix3 (0 : Fin 1) p c)) (fun c => x1 (ix3 (0 : Fin 1) q c)) x2 x3 x4 x5 x6 x7 n := by
  unfold k0_pay1
  simp only [shapeCast_abc_1abc_apply, pairsSplit_apply, addf_apply, readout_apply, colRepeated_apply]
  unfold k0_pay3 k0_pay2
  simp only [shapeCast_self, truncf_apply, maximumf_apply, addf_apply, subf_apply, broadcast_apply, hidden_apply,
    rowRepeated_apply, pairsFlattened_apply, rowsRepeated_apply, colsRepeated_apply, unitsRepeated_apply, proj_apply,
    shapeCast_1ab_ab_apply]
  rfl

end Cert.KernelIdeal.Body

end
-- ==== Proof.Blocks.lean ====
/-
  From the blocks to the whole array: after the run the result array is the projected arrangement of the perceptron
  (Spec: GK) of the argument arrays, entry by entry.

  The grid has 2 x 8 x 8 points (batch, block of 128 queries, block of 128 keys). At point (b, i, j) the body reads
  rows 128 i … 128 i + 127 of batch b of the query coordinates, rows 128 j … 128 j + 127 of batch b of the key coordinates
  and the whole weight and bias arrays (the three weight matrices through a change of float format, which is the
  identity on extended reals), and writes the block [b, all 8 heads, 128 i …, 128 j …] of the result. Entry (n, p, q) of
  that block is the perceptron at query 128 i + p and key 128 j + q, which is entry (b, n, 128 i + p, 128 j + q) of GK;
  the 128 blocks tile the result, so the whole result is GK.
-/
import proofs.«131962_j6700148981826_2_alg».proof.Proof.Gen.KernelIdeal.Value
import proofs.«131962_j6700148981826_2_alg».proof.Proof.Payload
import Idealize.ShloMosaic.Lib.Pipeline.Value
import Idealize.ShloMosaic.Lib.StableHlo.Run

noncomputable section

open scoped BigOperators

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.Bias
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The weight arrays as the region finds them: a change of float format of an argument, the identity here -/

theorem V_w1 (c : Dev nD) : (V m c main_v0 : S2x128.Idx → EReal) = m ((c : Thread nD τ).loc main_arg2) := by
  dsimp only [Gen.V, Gen.hostOps0]; after_results; rfl
theorem V_w2 (c : Dev nD) : (V m c main_v1 : S128x128.Idx → EReal) = m ((c : Thread nD τ).loc main_arg4) := by
  dsimp only [Gen.V, Gen.hostOps0]; after_results; rfl
theorem V_w3 (c : Dev nD) : (V m c main_v2 : S128x8.Idx → EReal) = m ((c : Thread nD τ).loc main_arg6) := by
  dsimp only [Gen.V, Gen.hostOps0]; after_results; rfl

/-! ## Where each window's block sits, decided once over the 128 points -/

/-- The query window moves with the result window's batch and query-block coordinates, the key window with its batch
    and key-block coordinates; every weight and bias window and the result's head axis stay at block 0. -/
theorem idx_facts : ∀ t : Fin cfg0.N,
    win0_0.index t (0 : Fin 3) = win0_8.index t (0 : Fin 4) ∧ win0_0.index t (1 : Fin 3) = win0_8.index t (2 : Fin 4)
    ∧ win0_0.index t (2 : Fin 3) = 0
    ∧ win0_1.index t (0 : Fin 3) = win0_8.index t (0 : Fin 4) ∧ win0_1.index t (1 : Fin 3) = win0_8.index t (3 : Fin 4)
    ∧ win0_1.index t (2 : Fin 3) = 0
    ∧ win0_8.index t (1 : Fin 4) = 0
    ∧ win0_8.index t (0 : Fin 4) ≤ 1 ∧ win0_8.index t (2 : Fin 4) ≤ 7 ∧ win0_8.index t (3 : Fin 4) ≤ 7
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-- Every block of the result (batch, query block, key block) is some point's. -/
theorem idx_onto : ∀ (q0 : Fin 2) (q2 q3 : Fin 8), ∃ t : Fin cfg0.N, win0_8.index t = ![q0.val, 0, q2.val, q3.val] :=
  (by decide +kernel : ∀ (q0 : Fin 2) (q2 q3 : Fin 8), ∃ t : Fin grid0.N, win0_8.index t = ![q0.val, 0, q2.val, q3.val])

/-! ## The input blocks read as entries of the argument arrays -/

/-- An entry of the query block at a point is the query array at the block's offset plus the entry's coordinates. -/
theorem qblk_apply (c : Dev nD) (t : Fin cfg0.N) (x : S1x128x2.Idx) (k : S2x1024x2.Idx)
    (h0 : (k 0).val = win0_0.index t (0 : Fin 3) * 1 + 1 * (x 0).val)
    (h1 : (k 1).val = win0_0.index t (1 : Fin 3) * 128 + 1 * (x 1).val)
    (h2 : (k 2).val = win0_0.index t (2 : Fin 3) * 2 + 1 * (x 2).val) :
    (iblk m c 0 t : S1x128x2.Idx → EReal) x = (m ((c : Thread nD τ).loc main_arg0) : S2x1024x2.Idx → EReal) k := by
  unfold iblk
  rw [View.read_apply]
  show V m c main_arg0 _ = _
  rw [V_main_arg0]
  refine congrArg (m ((c : Thread nD τ).loc main_arg0) : S2x1024x2.Idx → EReal) (funext fun a => Fin.ext ?_)
  match a with
  | ⟨0, _⟩ => exact h0.symm
  | ⟨1, _⟩ => exact h1.symm
  | ⟨2, _⟩ => exact h2.symm

/-- The same for the key block. -/
theorem kblk_apply (c : Dev nD) (t : Fin cfg0.N) (x : S1x128x2.Idx) (k : S2x1024x2.Idx)
    (h0 : (k 0).val = win0_1.index t (0 : Fin 3) * 1 + 1 * (x 0).val)
    (h1 : (k 1).val = win0_1.index t (1 : Fin 3) * 128 + 1 * (x 1).val)
    (h2 : (k 2).val = win0_1.index t (2 : Fin 3) * 2 + 1 * (x 2).val) :
    (iblk m c 1 t : S1x128x2.Idx → EReal) x = (m ((c : Thread nD τ).loc main_arg1) : S2x1024x2.Idx → EReal) k := by
  unfold iblk
  rw [View.read_apply]
  show V m c main_arg1 _ = _
  rw [V_main_arg1]
  refine congrArg (m ((c : Thread nD τ).loc main_arg1) : S2x1024x2.Idx → EReal) (funext fun a => Fin.ext ?_)
  match a with
  | ⟨0, _⟩ => exact h0.symm
  | ⟨1, _⟩ => exact h1.symm
  | ⟨2, _⟩ => exact h2.symm

/-- A window that holds its whole array has one block, at offset zero: its entries are the array's. -/
theorem w1blk (c : Dev nD) (t : Fin cfg0.N) : (iblk m c 2 t : S2x128.Idx → EReal) = m ((c : Thread nD τ).loc main_arg2) := by
  obtain ⟨-, -, -, -, -, -, -, -, -, -, e0, e1, -⟩ := idx_facts t
  funext x
  unfold iblk
  rw [View.read_apply]
  show (V m c main_v0 : S2x128.Idx → EReal) _ = _
  rw [V_w1]
  refine congrArg (m ((c : Thread nD τ).loc main_arg2) : S2x128.Idx → EReal) (funext fun a => Fin.ext ?_)
  match a with
  | ⟨0, _⟩ => show win0_2.index t (0 : Fin 2) * 2 + 1 * (x 0).val = (x 0).val; omega
  | ⟨1, _⟩ => show win0_2.index t (1 : Fin 2) * 128 + 1 * (x 1).val = (x 1).val; omega

theorem b1blk (c : Dev nD) (t : Fin cfg0.N) : (iblk m c 3 t : S128.Idx → EReal) = m ((c : Thread nD τ).loc main_arg3) := by
  obtain ⟨-, -, -, -, -, -, -, -, -, -, -, -, e0, -⟩ := idx_facts t
  funext x
  unfold iblk
  rw [View.read_apply]
  show V m c main_arg3 _ = _
  rw [V_main_arg3]
  refine congrArg (m ((c : Thread nD τ).loc main_arg3) : S128.Idx → EReal) (funext fun a => Fin.ext ?_)
  match a with
  | ⟨0, _⟩ => show win0_3.index t (0 : Fin 1) * 128 + 1 * (x 0).val = (x 0).val; omega

theorem w2blk (c : Dev nD) (t : Fin cfg0.N) : (iblk m c 4 t : S128x128.Idx → EReal) = m ((c : Thread nD τ).loc main_arg4) := by
  obtain ⟨-, -, -, -, -, -, -, -, -, -, -, -, -, e0, e1, -⟩ := idx_facts t
  funext x
  unfold iblk
  rw [View.read_apply]
  show (V m c main_v1 : S128x128.Idx → EReal) _ = _
  rw [V_w2]
  refine congrArg (m ((c : Thread nD τ).loc main_arg4) : S128x128.Idx → EReal) (funext fun a => Fin.ext ?_)
  match a with
  | ⟨0, _⟩ => show win0_4.index t (0 : Fin 2) * 128 + 1 * (x 0).val = (x 0).val; omega
  | ⟨1, _⟩ => show win0_4.index t (1 : Fin 2) * 128 + 1 * (x 1).val = (x 1).val; omega

theorem b2blk (c : Dev nD) (t : Fin cfg0.N) : (iblk m c 5 t : S128.Idx → EReal) = m ((c : Thread nD τ).loc main_arg5) := by
  obtain ⟨-, -, -, -, -, -, -, -, -, -, -, -, -, -, -, e0, -⟩ := idx_facts t
  funext x
  unfold iblk
  rw [View.read_apply]
  show V m c main_arg5 _ = _
  rw [V_main_arg5]
  refine congrArg (m ((c : Thread nD τ).loc main_arg5) : S128.Idx → EReal) (funext fun a => Fin.ext ?_)
  match a with
  | ⟨0, _⟩ => show win0_5.index t (0 : Fin 1) * 128 + 1 * (x 0).val = (x 0).val; omega

theorem w3blk (c : Dev nD) (t : Fin cfg0.N) : (iblk m c 6 t : S128x8.Idx → EReal) = m ((c : Thread nD τ).loc main_arg6) := by
  obtain ⟨-, -, -, -, -, -, -, -, -, -, -, -, -, -, -, -, e0, e1, -⟩ := idx_facts t
  funext x
  unfold iblk
  rw [View.read_apply]
  show (V m c main_v2 : S128x8.Idx → EReal) _ = _
  rw [V_w3]
  refine congrArg (m ((c : Thread nD τ).loc main_arg6) : S128x8.Idx → EReal) (funext fun a => Fin.ext ?_)
  match a with
  | ⟨0, _⟩ => show win0_6.index t (0 : Fin 2) * 128 + 1 * (x 0).val = (x 0).val; omega
  | ⟨1, _⟩ => show win0_6.index t (1 : Fin 2) * 8 + 1 * (x 1).val = (x 1).val; omega

theorem b3blk (c : Dev nD) (t : Fin cfg0.N) : (iblk m c 7 t : S8.Idx → EReal) = m ((c : Thread nD τ).loc main_arg7) := by
  obtain ⟨-, -, -, -, -, -, -, -, -, -, -, -, -, -, -, -, -, -, e0⟩ := idx_facts t
  funext x
  unfold iblk
  rw [View.read_apply]
  show V m c main_arg7 _ = _
  rw [V_main_arg7]
  refine congrArg (m ((c : Thread nD τ).loc main_arg7) : S8.Idx → EReal) (funext fun a => Fin.ext ?_)
  match a with
  | ⟨0, _⟩ => show win0_7.index t (0 : Fin 1) * 8 + 1 * (x 0).val = (x 0).val; omega

/-! ## One point's block of the result -/

/-- The perceptron depends on its nine arguments only through their values. -/
theorem perK_congr {qr qr' kr kr' : Fin 2 → EReal} {W1 W1' : ShW1.Idx → EReal} {B1 B1' : ShH.Idx → EReal}
    {W2 W2' : ShW2.Idx → EReal} {B2 B2' : ShH.Idx → EReal} {W3 W3' : ShW3.Idx → EReal} {B3 B3' : ShB3.Idx → EReal} {n n' : Fin 8}
    (h1 : qr = qr') (h2 : kr = kr') (h3 : W1 = W1') (h4 : B1 = B1') (h5 : W2 = W2') (h6 : B2 = B2') (h7 : W3 = W3')
    (h8 : B3 = B3') (h9 : n = n') :
    perK qr kr W1 B1 W2 B2 W3 B3 n = perK qr' kr' W1' B1' W2' B2' W3' B3' n' := by
  subst h1 h2 h3 h4 h5 h6 h7 h8 h9; rfl

/-- The result array the projecting program should end with: the perceptron of the argument arrays. -/
abbrev result (c : Dev nD) : Buf (Elt Ideal) ((c : Thread nD τ).loc main_v3) :=
  GK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Entry y of what the body stores at point t is the entry of the perceptron array that y lands on in the result. -/
theorem entry_eq (c : Dev nD) (t : Fin cfg0.N) (y : S1x8x128x128.Idx) :
    k0_pay1 (k0_pay2 (iblk m c 0 t) (iblk m c 1 t) (iblk m c 2 t) (iblk m c 3 t) (iblk m c 4 t) (iblk m c 5 t))
        (k0_pay3 (iblk m c 6 t)) (iblk m c 7 t) (constant S8x16384 .f32 0x00000000#32) y
      = result m c (((cfg0.win 8).blk t).view.emb y) := by
  obtain ⟨u, n, p, q, rfl⟩ : ∃ (u : Fin 1) (n : Fin 8) (p q : Fin 128), y = ix4 u n p q := ⟨y 0, y 1, y 2, y 3, eq_ix4 y⟩
  obtain ⟨a0, a1, a2, b0, b1, b2, o1, l0, l2, l3, -⟩ := idx_facts t
  have hu : u.val = 0 := by omega
  refine (body_apply (iblk m c 0 t) (iblk m c 1 t) (iblk m c 2 t) (iblk m c 3 t) (iblk m c 4 t) (iblk m c 5 t)
    (iblk m c 6 t) (iblk m c 7 t) u n p q).trans ?_
  refine perK_congr (funext fun c' => ?_) (funext fun c' => ?_) (w1blk m c t) (b1blk m c t) (w2blk m c t) (b2blk m c t)
    (w3blk m c t) (b3blk m c t) (Fin.ext ?_)
  · refine qblk_apply m c t (ix3 (0 : Fin 1) p c') _ ?_ ?_ ?_
    · show win0_8.index t (0 : Fin 4) * 1 + 1 * u.val = win0_0.index t (0 : Fin 3) * 1 + 1 * 0
      omega
    · show win0_8.index t (2 : Fin 4) * 128 + 1 * p.val = win0_0.index t (1 : Fin 3) * 128 + 1 * p.val
      omega
    · show c'.val = win0_0.index t (2 : Fin 3) * 2 + 1 * c'.val
      omega
  · refine kblk_apply m c t (ix3 (0 : Fin 1) q c') _ ?_ ?_ ?_
    · show win0_8.index t (0 : Fin 4) * 1 + 1 * u.val = win0_1.index t (0 : Fin 3) * 1 + 1 * 0
      omega
    · show win0_8.index t (3 : Fin 4) * 128 + 1 * q.val = win0_1.index t (1 : Fin 3) * 128 + 1 * q.val
      omega
    · show c'.val = win0_1.index t (2 : Fin 3) * 2 + 1 * c'.val
      omega
  · show n.val = win0_8.index t (1 : Fin 4) * 8 + 1 * n.val
    omega

/-- What point t writes back is block t of the perceptron array. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero hz4]
  simp only [View.ld_unit_zero (S := S1x128x2) hz3, View.ld_unit_zero (S := S2x128) hz2, View.ld_unit_zero (S := S128) hz1,
    View.ld_unit_zero (S := S128x128) hz2, View.ld_unit_zero (S := S128x8) hz2, View.ld_unit_zero (S := S8) hz1]
  funext j
  exact entry_eq m c t j

/-! ## The blocks tile the result -/

/-- An index of the result is in point t's block iff each coordinate is in the block's range on its axis. -/
theorem mem_blk (t : Fin cfg0.N) (i : S2x8x1024x1024.Idx) :
    i ∈ ((cfg0.win 8).blk t).view.set ↔ ∀ a : Fin 4, win0_8.index t a * S1x8x128x128.size a ≤ (i a).val
      ∧ (i a).val < win0_8.index t a * S1x8x128x128.size a + S1x8x128x128.size a := by
  show i ∈ ((View.whole main_v3).slice (win0_8.rect t)).set ↔ _
  rw [View.set_slice_whole, Rect.mem_set_unit]
  exact Iff.rfl

/-- Every index of the result lies in some point's block: batch b, query q and key k lie in the block of point
    (b, q / 128, k / 128), which holds every head. -/
theorem cover (i : S2x8x1024x1024.Idx) :
    ∃ t : Fin cfg0.N, (cfg0.win 8).flush t = true ∧ i ∈ ((cfg0.win 8).blk t).view.set := by
  have hi0 : (i 0).val < 2 := (i 0).isLt
  have hi1 : (i 1).val < 8 := (i 1).isLt
  have hi2 : (i 2).val < 1024 := (i 2).isLt
  have hi3 : (i 3).val < 1024 := (i 3).isLt
  obtain ⟨t, ht⟩ := idx_onto ⟨(i 0).val, hi0⟩ ⟨(i 2).val / 128, by omega⟩ ⟨(i 3).val / 128, by omega⟩
  have q0 : win0_8.index t (0 : Fin 4) = (i 0).val := congrFun ht 0
  have q1 : win0_8.index t (1 : Fin 4) = 0 := congrFun ht 1
  have q2 : win0_8.index t (2 : Fin 4) = (i 2).val / 128 := congrFun ht 2
  have q3 : win0_8.index t (3 : Fin 4) = (i 3).val / 128 := congrFun ht 3
  refine ⟨t, flush0_8 t, ?_⟩
  rw [mem_blk]
  intro a
  match a with
  | ⟨0, _⟩ =>
    show win0_8.index t (0 : Fin 4) * 1 ≤ (i 0).val ∧ (i 0).val < win0_8.index t (0 : Fin 4) * 1 + 1
    omega
  | ⟨1, _⟩ =>
    show win0_8.index t (1 : Fin 4) * 8 ≤ (i 1).val ∧ (i 1).val < win0_8.index t (1 : Fin 4) * 8 + 8
    omega
  | ⟨2, _⟩ =>
    show win0_8.index t (2 : Fin 4) * 128 ≤ (i 2).val ∧ (i 2).val < win0_8.index t (2 : Fin 4) * 128 + 128
    omega
  | ⟨3, _⟩ =>
    show win0_8.index t (3 : Fin 4) * 128 ≤ (i 3).val ∧ (i 3).val < win0_8.index t (3 : Fin 4) * 128 + 128
    omega

/-- So the result array ends holding the perceptron array. -/
theorem final (c : Dev nD) : (dats m 0 c).arrAt 8 cfg0.N = result m c :=
  (dats m 0 c).arrAt_eq_of_cover 8 (result m c) (fun t _ => flushed_eq m c t) cover

/-- The run, read: every weakly fair execution ends with the result array at the perceptron array of the arguments, the
    arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.lean ====
/-
  The certificate's claims assembled.

  Both programs compute, for every batch, head, query point and key point, a three-layer perceptron of the relative
  position of the two points (Spec). The kernel projects the query and the key coordinates separately and subtracts the
  projections (perK, GK); the reference projects the difference of the coordinates (perR, GR). The kernel's result array
  ends at GK of the arguments (Blocks: each grid point writes one block of it, Payload: what the body computes at an
  entry), the reference's at GR (RefSpec), and GK = GR when the coordinates and the first weight matrix are real numbers
  (Spec: the ring law of the first layer), which the precondition gives (Finite). The idealization rewrote nothing, so
  the kernel and its idealization are one text.
-/
import proofs.«131962_j6700148981826_2_alg».proof.Defs
import proofs.«131962_j6700148981826_2_alg».proof.Proof.Gen.Kernel
import proofs.«131962_j6700148981826_2_alg».proof.Proof.Gen.Kernel.Skeleton
import proofs.«131962_j6700148981826_2_alg».proof.Proof.Gen.Kernel.Launch
import proofs.«131962_j6700148981826_2_alg».proof.Proof.Gen.Kernel.Points
import proofs.«131962_j6700148981826_2_alg».proof.Proof.Gen.Kernel.Frame
import proofs.«131962_j6700148981826_2_alg».proof.Proof.Gen.KernelIdeal
import proofs.«131962_j6700148981826_2_alg».proof.Proof.Gen.KernelIdeal.Skeleton
import proofs.«131962_j6700148981826_2_alg».proof.Proof.Gen.KernelIdeal.Launch
import proofs.«131962_j6700148981826_2_alg».proof.Proof.Gen.KernelIdeal.Points
import proofs.«131962_j6700148981826_2_alg».proof.Proof.Gen.KernelIdeal.Frame
import proofs.«131962_j6700148981826_2_alg».proof.Proof.Gen.ReferenceIdeal
import proofs.«131962_j6700148981826_2_alg».proof.Proof.Gen.Pre_finite_inputs
import proofs.«131962_j6700148981826_2_alg».proof.Proof.Gen.KernelIdeal.Value
import proofs.«131962_j6700148981826_2_alg».proof.Proof.Gen.ReferenceIdeal.Run
import proofs.«131962_j6700148981826_2_alg».proof.Proof.Gen.ReferenceIdeal.Read
import proofs.«131962_j6700148981826_2_alg».proof.Proof.Spec
import proofs.«131962_j6700148981826_2_alg».proof.Proof.Finite
import proofs.«131962_j6700148981826_2_alg».proof.Proof.RefSpec
import proofs.«131962_j6700148981826_2_alg».proof.Proof.Payload
import proofs.«131962_j6700148981826_2_alg».proof.Proof.Blocks
import Idealize.ShloMosaic.Adequacy
import Idealize.ShloMosaic.Init

noncomputable section

namespace Cert.Proof

open Idealize.ShloMosaic Idealize.ShloMosaic.TcCoe Idealize.SL.Sem

/-- The kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories agreeing on the arguments, the idealized kernel's result is the perceptron array with the projections
    subtracted, the reference's the one with the difference projected; with finite coordinates and finite first weights
    the two arrays are equal. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  obtain ⟨fq, fk, fw⟩ := Cert.Finite.of_pre _ _ _ _ _ _ _ _ (hpre c)
  rw [Cert.ReferenceIdeal.Read.val_main_v19_eq, Cert.ReferenceIdeal.RefValue.result_is_GR, h0, h1, h2, h3, h4, h5, h6, h7]
  exact (Cert.Bias.GK_eq_GR _ _ _ _ _ _ _ _ fq fk fw).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
